-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_cpr_dt" .f32 0x3CFB53D1#32 ((131072 / 4272283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) (main_arg3 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S16384x1024 : Shape := ⟨2, ![16384, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .i32⟩
  | .hbm, ⟨8, _⟩ => ⟨S16384x1024, .f32⟩
  | .hbm, ⟨9, _⟩ => ⟨S16384x1024, .f32⟩
  | .hbm, ⟨10, _⟩ => ⟨S16777216, .f32⟩
  | .hbm, ⟨11, _⟩ => ⟨S16777216, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .i32⟩
  | .local _ .vmem, ⟨7, _⟩ => ⟨S512x1024, .i32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16777216_S16384x1024 : S16777216.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S16384x1024_S16777216 : S16384x1024.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .i32 = 32 ∨ (Rect.block (s := S16384x1024) S512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.EncoderSpec.lean ====
/-
  One wheel's encoder step, as functions of that wheel's four inputs: its speed `ws`, the fractional clicks `rc`
  carried over from the step before, the previous output `conv`, and the signal state `st`.

    temp    = ws · s + rc                      (s the scale DT · CPR, the same 32-bit word in both programs)
    clicks  = temp rounded toward zero         (the ceiling below zero, the floor from zero up)
    output  = clicks / s   if st = 0,   conv if st = 2,   0 otherwise
    carry   = temp − clicks if st = 0,  0    if st = 1,   rc otherwise

  The two programs differ in one place only: where the reference divides `clicks` by `s`, the kernel multiplies it by
  a constant `r` that the certificate's table reads as the exact reciprocal `1/s`. The functions below are written over any
  float instance, once with the kernel's operations (`outK`, `carryK`) and once with the host's (`outH`, `carryH`), so
  that each printed program unfolds to its own pair; over the extended reals the two pairs are one pair, because
  division by a nonzero real IS the product with its reciprocal there, at the infinities too (`outK_eq_outH`).
-/
import Idealize.ShloMosaic.PureOps.Ideal
import Idealize.ShloMosaic.PureOps.IdealRules

noncomputable section

namespace Encoder

open Idealize.ShloMosaic

variable {F : FTy → Type} [FloatOps F]

/-- `ws · s + rc`: the clicks accumulated over the step, whole and fractional. -/
def temp (ws rc : F .f32) : F .f32 :=
  FloatOps.addf (FloatOps.mulf ws (FloatOps.ofBits .f32 0x42026136#32)) rc

/-- Rounding toward zero with the kernel's ceiling and floor. -/
def clicksK (t : F .f32) : F .f32 :=
  Scalar.select (FloatOps.cmpf .olt t (FloatOps.ofBits .f32 0x00000000#32)) (FloatOps.ceil t) (FloatOps.floor t)

/-- Rounding toward zero with the host's ceiling and floor. -/
def clicksH (t : F .f32) : F .f32 :=
  Scalar.select (FloatOps.cmpf .olt t (FloatOps.ofBits .f32 0x00000000#32))
    (FloatOps.hostUnary .ceil t) (FloatOps.hostUnary .floor t)

/-- The kernel's new output: the whole clicks times the constant `r` in the nominal state. -/
def outK [Named F] (κ : String → Option EReal) (ws rc conv : F .f32) (st : BitVec 32) : F .f32 :=
  Scalar.select (IntOp.cmpi .eq st 0#32)
    (FloatOps.mulf (clicksK (temp ws rc)) (Named.named κ "inv_cpr_dt" (φ := .f32) 0x3CFB53D1#32))
    (Scalar.select (IntOp.cmpi .eq st 2#32) conv (FloatOps.ofBits .f32 0x00000000#32))

/-- The kernel's new carry. -/
def carryK (ws rc : F .f32) (st : BitVec 32) : F .f32 :=
  Scalar.select (IntOp.cmpi .eq st 0#32)
    (FloatOps.subf (temp ws rc) (clicksK (temp ws rc)))
    (Scalar.select (IntOp.cmpi .eq st 1#32) (FloatOps.ofBits .f32 0x00000000#32) rc)

/-- The reference's new output: the whole clicks divided by the scale in the nominal state. -/
def outH (ws rc conv : F .f32) (st : BitVec 32) : F .f32 :=
  Scalar.select (IntOp.cmpi .eq st 0#32)
    (FloatOps.hostDivf (clicksH (temp ws rc)) (FloatOps.ofBits .f32 0x42026136#32))
    (Scalar.select (IntOp.cmpi .eq st 2#32) conv (FloatOps.ofBits .f32 0x00000000#32))

/-- The reference's new carry. -/
def carryH (ws rc : F .f32) (st : BitVec 32) : F .f32 :=
  Scalar.select (IntOp.cmpi .eq st 0#32)
    (FloatOps.subf (temp ws rc) (clicksH (temp ws rc)))
    (Scalar.select (IntOp.cmpi .eq st 1#32) (FloatOps.ofBits .f32 0x00000000#32) rc)

/-! ## Over the extended reals -/

/-- The scale's word denotes the dyadic rational 4272283 / 2^17 (about 32.5949). -/
theorem scale_val : Ideal.ofBits .f32 0x42026136#32 = ((4272283 / 131072 : ℝ) : EReal) := by
  simp [Ideal.ofBits, Ideal.ieee, -EReal.coe_mul]; norm_num

/-- The kernel's and the host's ceiling and floor are one rounding each on the extended reals. -/
theorem clicksH_eq (t : Ideal .f32) : clicksH t = clicksK t := rfl

/-- Dividing by the scale is multiplying by its reciprocal, for every extended real. -/
theorem div_scale (x : Ideal .f32) :
    FloatOps.hostDivf x (FloatOps.ofBits (F := Ideal) .f32 0x42026136#32)
      = FloatOps.mulf x (((131072 / 4272283 : ℝ) : EReal) : Ideal .f32) := by
  rw [Ideal.hostDivf_def, Ideal.ofBits_def, Ideal.mulf_def, scale_val,
    Ideal.div_coe (by norm_num : (4272283 / 131072 : ℝ) ≠ 0)]
  norm_num

/-- With the kernel's constant read as the exact reciprocal of the scale, the two outputs are one function. -/
theorem outK_eq_outH (κ : String → Option EReal)
    (hκ : κ "inv_cpr_dt" = some ((131072 / 4272283 : ℝ) : EReal))
    (ws rc conv : Ideal .f32) (st : BitVec 32) :
    outK κ ws rc conv st = outH ws rc conv st := by
  unfold outK outH
  rw [IdealRules.named_const.ideal_named_scalar κ "inv_cpr_dt" _ _ hκ, clicksH_eq, div_scale]

/-- The two carries are one function. -/
theorem carryK_eq_carryH (ws rc : Ideal .f32) (st : BitVec 32) : carryK ws rc st = carryH ws rc st := rfl

end Encoder

end
-- ==== Proof.KernelRegion.lean ====
/-
  What the kernel's two output arrays hold after its region. The region walks the [16384, 1024] arrays in 32 blocks of
  512 rows; at a point its body loads the four input blocks whole, computes index by index, and stores two whole
  output blocks. So each output block is the encoder step of the input blocks at the same in-block index; every
  window has the same block index (row block `t`, column block 0), hence an output block is the block of ONE
  whole-array function of the four input arrays, and the 32 row blocks cover the array: after the region each
  output array IS that function.
-/
import proofs.«110232_j80255758893556_2_alg».proof.Proof.Gen.KernelIdeal.Frame
import proofs.«110232_j80255758893556_2_alg».proof.Proof.EncoderSpec
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem zeroOffsets : (![0, 0] : Fin 2 → Nat) = fun _ => 0 := funext fun a => by fin_cases a <;> rfl

/-! ## The body's two stored values, index by index -/

/-- The first stored value is the new output of the four loaded blocks at each index. -/
theorem newOutput_block (x0 x1 x2 : Vec F S512x1024 .f32) (x3 : Vec F S512x1024 .i32) :
    k0_pay7 x0 x1 x2 x3 = fun j => Encoder.outK κ (x0 j) (x1 j) (x2 j) (x3 j) := by
  unfold k0_pay7 k0_pay6 k0_pay5 k0_pay4 k0_pay3 k0_pay2 k0_pay1
  simp only [shapeCast_self]
  rfl

/-- The second stored value is the new carry at each index. -/
theorem newCarry_block (x0 x1 : Vec F S512x1024 .f32) (x3 : Vec F S512x1024 .i32) :
    k0_pay8 x0 x1 x3 = fun j => Encoder.carryK (x0 j) (x1 j) (x3 j) := by
  unfold k0_pay8 k0_pay6 k0_pay5 k0_pay4 k0_pay3 k0_pay2 k0_pay1
  simp only [shapeCast_self]
  rfl

/-! ## The whole-array functions -/

/-- The new output over whole [16384, 1024] arrays. -/
abbrev newOutput (a0 a1 a2 : S16384x1024.Idx → Elt F .f32) (a3 : S16384x1024.Idx → Elt F .i32) :
    S16384x1024.Idx → Elt F .f32 := fun i => Encoder.outK κ (a0 i) (a1 i) (a2 i) (a3 i)

/-- The new carry over whole [16384, 1024] arrays. -/
abbrev newCarry (a0 a1 : S16384x1024.Idx → Elt F .f32) (a3 : S16384x1024.Idx → Elt F .i32) :
    S16384x1024.Idx → Elt F .f32 := fun i => Encoder.carryK (a0 i) (a1 i) (a3 i)

/-! ## The block indices -/

/-- Decided over the 32 grid points: every window is at the block index of the first output window, whose row block
    is below 32 and whose column block is 0. -/
theorem sameBlock : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 31 ∧ win0_4.index t (1 : Fin 2) = 0 :=
  (by decide +kernel : ∀ t : Fin grid0.N, _)

/-- Every row block is some point's. -/
theorem everyRowBlock : ∀ q : Fin 32, ∃ t : Fin cfg0.N, win0_4.index t = ![q.val, 0] :=
  (by decide +kernel : ∀ q : Fin 32, ∃ t : Fin grid0.N, win0_4.index t = ![q.val, 0])

/-! ## What a point writes back -/

/-- Point `t` writes back, to the first output array, block `t` of the new output of the four input arrays as the
    region finds them. -/
theorem flushed_newOutput (c : Dev nD) (t : Fin cfg0.N) :
    (dats m 0 c).flushed 4 t = ((cfg0.win 4).blk t).view.read (Elt F)
      (newOutput (V m c main_v0) (V m c main_v1) (V m c main_v2) (V m c main_v3)) := by
  show (cfg0.win 4).cut (grid0.coords t) ((dats m 0 c).after 4 t) = _
  rw [after0_4]
  unfold out0_4
  rw [View.canon_unit_zero zeroOffsets]
  simp only [View.ld_unit_zero (S := S512x1024) zeroOffsets]
  rw [newOutput_block]
  obtain ⟨e00, e01, e10, e11, e20, e21, e30, e31, e50, e51, b0, b1⟩ := sameBlock t
  funext j
  show Encoder.outK κ (V m c main_v0 (((cfg0.win 0).blk t).view.emb j)) (V m c main_v1 (((cfg0.win 1).blk t).view.emb j))
      (V m c main_v2 (((cfg0.win 2).blk t).view.emb j)) (V m c main_v3 (((cfg0.win 3).blk t).view.emb j))
    = Encoder.outK κ (V m c main_v0 (((cfg0.win 4).blk t).view.emb j)) (V m c main_v1 (((cfg0.win 4).blk t).view.emb j))
      (V m c main_v2 (((cfg0.win 4).blk t).view.emb j)) (V m c main_v3 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * (j 1).val = win0_4.index t (1 : Fin 2) * 1024 + 1 * (j 1).val; omega
  have h1 : ((cfg0.win 1).blk t).view.emb j = ((cfg0.win 4).blk t).view.emb j := by
    funext a; apply Fin.ext
    match a with
    | ⟨0, _⟩ => show win0_1.index t (0 : Fin 2) * 512 + 1 * (j 0).val = win0_4.index t (0 : Fin 2) * 512 + 1 * (j 0).val; omega
    | ⟨1, _⟩ => show win0_1.index t (1 : Fin 2) * 1024 + 1 * (j 1).val = win0_4.index t (1 : Fin 2) * 1024 + 1 * (j 1).val; omega
  have h2 : ((cfg0.win 2).blk t).view.emb j = ((cfg0.win 4).blk t).view.emb j := by
    funext a; apply Fin.ext
    match a with
    | ⟨0, _⟩ => show win0_2.index t (0 : Fin 2) * 512 + 1 * (j 0).val = win0_4.index t (0 : Fin 2) * 512 + 1 * (j 0).val; omega
    | ⟨1, _⟩ => show win0_2.index t (1 : Fin 2) * 1024 + 1 * (j 1).val = win0_4.index t (1 : Fin 2) * 1024 + 1 * (j 1).val; omega
  have h3 : ((cfg0.win 3).blk t).view.emb j = ((cfg0.win 4).blk t).view.emb j := by
    funext a; apply Fin.ext
    match a with
    | ⟨0, _⟩ => show win0_3.index t (0 : Fin 2) * 512 + 1 * (j 0).val = win0_4.index t (0 : Fin 2) * 512 + 1 * (j 0).val; omega
    | ⟨1, _⟩ => show win0_3.index t (1 : Fin 2) * 1024 + 1 * (j 1).val = win0_4.index t (1 : Fin 2) * 1024 + 1 * (j 1).val; omega
  rw [h0, h1, h2, h3]

/-- Point `t` writes back, to the second output array, block `t` of the new carry. -/
theorem flushed_newCarry (c : Dev nD) (t : Fin cfg0.N) :
    (dats m 0 c).flushed 5 t = ((cfg0.win 5).blk t).view.read (Elt F)
      (newCarry (V m c main_v0) (V m c main_v1) (V m c main_v3)) := by
  show (cfg0.win 5).cut (grid0.coords t) ((dats m 0 c).after 5 t) = _
  rw [after0_5]
  unfold out0_5
  rw [View.canon_unit_zero zeroOffsets]
  simp only [View.ld_unit_zero (S := S512x1024) zeroOffsets]
  rw [newCarry_block]
  obtain ⟨e00, e01, e10, e11, e20, e21, e30, e31, e50, e51, b0, b1⟩ := sameBlock t
  funext j
  show Encoder.carryK (V m c main_v0 (((cfg0.win 0).blk t).view.emb j)) (V m c main_v1 (((cfg0.win 1).blk t).view.emb j))
      (V m c main_v3 (((cfg0.win 3).blk t).view.emb j))
    = Encoder.carryK (V m c main_v0 (((cfg0.win 5).blk t).view.emb j)) (V m c main_v1 (((cfg0.win 5).blk t).view.emb j))
      (V m c main_v3 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * (j 1).val = win0_5.index t (1 : Fin 2) * 1024 + 1 * (j 1).val; omega
  have h1 : ((cfg0.win 1).blk t).view.emb j = ((cfg0.win 5).blk t).view.emb j := by
    funext a; apply Fin.ext
    match a with
    | ⟨0, _⟩ => show win0_1.index t (0 : Fin 2) * 512 + 1 * (j 0).val = win0_5.index t (0 : Fin 2) * 512 + 1 * (j 0).val; omega
    | ⟨1, _⟩ => show win0_1.index t (1 : Fin 2) * 1024 + 1 * (j 1).val = win0_5.index t (1 : Fin 2) * 1024 + 1 * (j 1).val; omega
  have h3 : ((cfg0.win 3).blk t).view.emb j = ((cfg0.win 5).blk t).view.emb j := by
    funext a; apply Fin.ext
    match a with
    | ⟨0, _⟩ => show win0_3.index t (0 : Fin 2) * 512 + 1 * (j 0).val = win0_5.index t (0 : Fin 2) * 512 + 1 * (j 0).val; omega
    | ⟨1, _⟩ => show win0_3.index t (1 : Fin 2) * 1024 + 1 * (j 1).val = win0_5.index t (1 : Fin 2) * 1024 + 1 * (j 1).val; omega
  rw [h0, h1, h3]

/-! ## The blocks cover the arrays -/

/-- An index of the first output array is in point `t`'s block iff each coordinate is in the block's range. -/
theorem mem_block_newOutput (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v4_0).slice (win0_4.rect t)).set ↔ _
  rw [View.set_slice_whole, Rect.mem_set_unit]
  exact Iff.rfl

/-- The same for the second output array. -/
theorem mem_block_newCarry (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4_1).slice (win0_5.rect t)).set ↔ _
  rw [View.set_slice_whole, Rect.mem_set_unit]
  exact Iff.rfl

/-- Row `r` lies in row block `r / 512`: every index of the first output array is in some point's block. -/
theorem cover_newOutput (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := everyRowBlock ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_block_newOutput]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- And of the second. -/
theorem cover_newCarry (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := everyRowBlock ⟨(i 0).val / 512, by omega⟩
  have q0 : win0_4.index t (0 : Fin 2) = (i 0).val / 512 := congrFun ht 0
  have q1 : win0_4.index t (1 : Fin 2) = 0 := congrFun ht 1
  obtain ⟨e00, e01, e10, e11, e20, e21, e30, e31, e50, e51, b0, b1⟩ := sameBlock t
  refine ⟨t, flush0_5 t, ?_⟩
  rw [mem_block_newCarry]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The arrays after the region -/

/-- After the region the first output array is the new output of the four input arrays as the region found them. -/
theorem array_newOutput (c : Dev nD) :
    (dats m 0 c).arrAt 4 cfg0.N = newOutput (V m c main_v0) (V m c main_v1) (V m c main_v2) (V m c main_v3) :=
  (dats m 0 c).arrAt_eq_of_cover 4 _ (fun t _ => flushed_newOutput m c t) cover_newOutput

/-- And the second the new carry. -/
theorem array_newCarry (c : Dev nD) :
    (dats m 0 c).arrAt 5 cfg0.N = newCarry (V m c main_v0) (V m c main_v1) (V m c main_v3) :=
  (dats m 0 c).arrAt_eq_of_cover 5 _ (fun t _ => flushed_newCarry m c t) cover_newCarry

end Cert.KernelIdeal.Region

end
-- ==== Proof.KernelRun.lean ====
/-
  The kernel's whole program. Before the region four host reshapes re-bracket the flat [16777216] arguments as
  [16384, 1024] arrays, row-major; after it two host reshapes flatten the two output arrays back. The region's output
  arrays are the encoder step of its input arrays index by index (the module before this one), and a function computed
  index by index commutes with re-bracketing the index — flattening [R, C] after re-bracketing [N] as [R, C] is the
  identity on positions — so each flat result, at a flat index `i`, is the encoder step of the four flat arguments
  at `i`. The run: every weakly fair execution of @main terminates with the two results at those functions of the
  launch contents and the arguments unchanged.
-/
import proofs.«110232_j80255758893556_2_alg».proof.Proof.KernelRegion
import Idealize.ShloMosaic.Lib.StableHlo.Run

set_option maxRecDepth 16384

noncomputable section

namespace Cert.KernelIdeal.Whole

open Cert.KernelIdeal Cert.KernelIdeal.Gen Cert.KernelIdeal.Region Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## The arrays the region finds: the arguments re-bracketed -/

theorem entry_ws (c : Dev nD) : (V m c main_v0 : S16384x1024.Idx → Elt F .f32)
    = shapeCast S16384x1024 (m ((c.tc : Thread nD τ).loc main_arg0)) shapeCasts_S16777216_S16384x1024 := by
  show StableHlo.after hostOps0 (fun b => m (c, b)) (Proc.devRef .tc main_v0) = _
  after_results
  rfl

theorem entry_rc (c : Dev nD) : (V m c main_v1 : S16384x1024.Idx → Elt F .f32)
    = shapeCast S16384x1024 (m ((c.tc : Thread nD τ).loc main_arg1)) shapeCasts_S16777216_S16384x1024 := by
  show StableHlo.after hostOps0 (fun b => m (c, b)) (Proc.devRef .tc main_v1) = _
  after_results
  rfl

theorem entry_conv (c : Dev nD) : (V m c main_v2 : S16384x1024.Idx → Elt F .f32)
    = shapeCast S16384x1024 (m ((c.tc : Thread nD τ).loc main_arg2)) shapeCasts_S16777216_S16384x1024 := by
  show StableHlo.after hostOps0 (fun b => m (c, b)) (Proc.devRef .tc main_v2) = _
  after_results
  rfl

theorem entry_st (c : Dev nD) : (V m c main_v3 : S16384x1024.Idx → Elt F .i32)
    = shapeCast S16384x1024 (m ((c.tc : Thread nD τ).loc main_arg3)) shapeCasts_S16777216_S16384x1024 := by
  show StableHlo.after hostOps0 (fun b => m (c, b)) (Proc.devRef .tc main_v3) = _
  after_results
  rfl

/-! ## The results: the output arrays flattened -/

/-- The first result is the first output array after the region, flattened. -/
theorem result_newOutput (c : Dev nD) :
    (Pipeline.afterTail₀ cfgs (dats m) 0 (V0 m) [hostOps1] c main_v5 : S16777216.Idx → Elt F .f32)
      = shapeCast S16777216 ((dats m 0 c).arrAt 4 cfg0.N) shapeCasts_S16384x1024_S16777216 := by
  have e : Pipeline.withArrays spec0 c (V0 m c) (fun w => (dats m 0 c).arrAt w cfg0.N) (Proc.devRef .tc main_v4_0)
      = (dats m 0 c).arrAt 4 cfg0.N := Pipeline.withArrays_arr spec0 launch0.win.arr_inj c _ _ 4
  unfold Pipeline.afterTail₀
  show StableHlo.after hostOps1 _ (Proc.devRef .tc main_v5) = _
  after_results
  exact congrArg (fun A : S16384x1024.Idx → Elt F .f32 => shapeCast S16777216 A shapeCasts_S16384x1024_S16777216) e

/-- The second result is the second output array after the region, flattened. -/
theorem result_newCarry (c : Dev nD) :
    (Pipeline.afterTail₀ cfgs (dats m) 0 (V0 m) [hostOps1] c main_v6 : S16777216.Idx → Elt F .f32)
      = shapeCast S16777216 ((dats m 0 c).arrAt 5 cfg0.N) shapeCasts_S16384x1024_S16777216 := by
  have e : Pipeline.withArrays spec0 c (V0 m c) (fun w => (dats m 0 c).arrAt w cfg0.N) (Proc.devRef .tc main_v4_1)
      = (dats m 0 c).arrAt 5 cfg0.N := Pipeline.withArrays_arr spec0 launch0.win.arr_inj c _ _ 5
  unfold Pipeline.afterTail₀
  show StableHlo.after hostOps1 _ (Proc.devRef .tc main_v6) = _
  after_results
  exact congrArg (fun A : S16384x1024.Idx → Elt F .f32 => shapeCast S16777216 A shapeCasts_S16384x1024_S16777216) e

/-! ## The results, flat -/

/-- The first result at a flat index is the new output of the four flat arguments there. -/
theorem flat_newOutput (c : Dev nD) :
    (Pipeline.afterTail₀ cfgs (dats m) 0 (V0 m) [hostOps1] c main_v5 : S16777216.Idx → Elt F .f32)
      = fun i => Encoder.outK κ ((m ((c.tc : Thread nD τ).loc main_arg0)) i) ((m ((c.tc : Thread nD τ).loc main_arg1)) i) ((m ((c.tc : Thread nD τ).loc main_arg2)) i) ((m ((c.tc : Thread nD τ).loc main_arg3)) i) := by
  rw [result_newOutput, array_newOutput, entry_ws, entry_rc, entry_conv, entry_st]
  exact shapeCast_shapeCast
    (fun i => Encoder.outK κ ((m ((c.tc : Thread nD τ).loc main_arg0)) i) ((m ((c.tc : Thread nD τ).loc main_arg1)) i) ((m ((c.tc : Thread nD τ).loc main_arg2)) i) ((m ((c.tc : Thread nD τ).loc main_arg3)) i))
    shapeCasts_S16777216_S16384x1024 shapeCasts_S16384x1024_S16777216

/-- The second result at a flat index is the new carry. -/
theorem flat_newCarry (c : Dev nD) :
    (Pipeline.afterTail₀ cfgs (dats m) 0 (V0 m) [hostOps1] c main_v6 : S16777216.Idx → Elt F .f32)
      = fun i => Encoder.carryK ((m ((c.tc : Thread nD τ).loc main_arg0)) i) ((m ((c.tc : Thread nD τ).loc main_arg1)) i) ((m ((c.tc : Thread nD τ).loc main_arg3)) i) := by
  rw [result_newCarry, array_newCarry, entry_ws, entry_rc, entry_st]
  exact shapeCast_shapeCast
    (fun i => Encoder.carryK ((m ((c.tc : Thread nD τ).loc main_arg0)) i) ((m ((c.tc : Thread nD τ).loc main_arg1)) i) ((m ((c.tc : Thread nD τ).loc main_arg3)) i))
    shapeCasts_S16777216_S16384x1024 shapeCasts_S16384x1024_S16777216

/-! ## The run -/

/-- On every device, from any memory with zero counters: every weakly fair execution of the kernel's @main terminates
    with its two results at the encoder step of the arguments' launch contents, index by index, and the arguments
    unchanged. -/
theorem run : θ_run defs (onTc (τ := τ) (main (F := F))) ⟨m, fun _ => 0, ρ⟩ fun r => ∀ c : Dev nD,
      r.2.mem ((c.tc : Thread nD τ).loc main_v5)
          = (fun i => Encoder.outK κ ((m ((c.tc : Thread nD τ).loc main_arg0)) i) ((m ((c.tc : Thread nD τ).loc main_arg1)) i) ((m ((c.tc : Thread nD τ).loc main_arg2)) i) ((m ((c.tc : Thread nD τ).loc main_arg3)) i))
      ∧ r.2.mem ((c.tc : Thread nD τ).loc main_v6)
          = (fun i => Encoder.carryK ((m ((c.tc : Thread nD τ).loc main_arg0)) i) ((m ((c.tc : Thread nD τ).loc main_arg1)) i) ((m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (flat_newOutput m c),
      ((h c).2 main_v6 (Pipeline.mem_restRefs_of main_v6 (by decide) (by decide))).trans (flat_newCarry m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferenceRun.lean ====
/-
  The reference program's run, read back. Its @main is a straight line of thirty host operations once the
  functions jax outlined are read at their call sites: `@trunc` is a zero, its broadcast, the comparison
  `temp < 0`, a ceiling, a floor and the select between them (`@_where`); the three `jnp.where` with a scalar branch
  are each that scalar's broadcast and a select. Every operation acts index by index, so each of the two results,
  at an index `i`, is the encoder step of the four inputs at `i`: the new output `Encoder.outH` and the new carry
  `Encoder.carryH`. The run: every weakly fair execution terminates with the two result buffers at those
  functions of the arguments' launch contents, and the arguments unchanged.
-/
import proofs.«110232_j80255758893556_2_alg».proof.Proof.Gen.ReferenceIdeal
import proofs.«110232_j80255758893556_2_alg».proof.Proof.EncoderSpec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each outlined function's body listed where it is called, over that call's buffers. -/
abbrev ops : List (HloOp τ sig (Elt F)) :=
  [ nullary main_c (constantI S_ 32 0#32),
    unary main_c main_v0 (broadcastInDim S16777216 ![] bcast_S_S16777216 : (⟨S_, .i32⟩ : BufTy).Contents (Elt F) → (⟨S16777216, .i32⟩ : BufTy).Contents (Elt F)),
    binary main_arg3 main_v0 main_v1 (cmpi .eq : (⟨S16777216, .i32⟩ : BufTy).Contents (Elt F) → (⟨S16777216, .i32⟩ : BufTy).Contents (Elt F) → (⟨S16777216, .i1⟩ : BufTy).Contents (Elt F)),
    nullary main_c_0 (constantI S_ 32 1#32),
    unary main_c_0 main_v2 (broadcastInDim S16777216 ![] bcast_S_S16777216 : (⟨S_, .i32⟩ : BufTy).Contents (Elt F) → (⟨S16777216, .i32⟩ : BufTy).Contents (Elt F)),
    binary main_arg3 main_v2 main_v3 (cmpi .eq : (⟨S16777216, .i32⟩ : BufTy).Contents (Elt F) → (⟨S16777216, .i32⟩ : BufTy).Contents (Elt F) → (⟨S16777216, .i1⟩ : BufTy).Contents (Elt F)),
    nullary main_c_1 (constantI S_ 32 2#32),
    unary main_c_1 main_v4 (broadcastInDim S16777216 ![] bcast_S_S16777216 : (⟨S_, .i32⟩ : BufTy).Contents (Elt F) → (⟨S16777216, .i32⟩ : BufTy).Contents (Elt F)),
    binary main_arg3 main_v4 main_v5 (cmpi .eq : (⟨S16777216, .i32⟩ : BufTy).Contents (Elt F) → (⟨S16777216, .i32⟩ : BufTy).Contents (Elt F) → (⟨S16777216, .i1⟩ : BufTy).Contents (Elt F)),
    nullary main_cst (constant S_ .f32 0x42026136#32),
    unary main_cst main_v6 (broadcastInDim S16777216 ![] bcast_S_S16777216 : (⟨S_, .f32⟩ : BufTy).Contents (Elt F) → (⟨S16777216, .f32⟩ : BufTy).Contents (Elt F)),
    binary main_arg0 main_v6 main_v7 (mulf : (⟨S16777216, .f32⟩ : BufTy).Contents (Elt F) → (⟨S16777216, .f32⟩ : BufTy).Contents (Elt F) → (⟨S16777216, .f32⟩ : BufTy).Contents (Elt F)),
    binary main_v7 main_arg1 main_v8 (addf : (⟨S16777216, .f32⟩ : BufTy).Contents (Elt F) → (⟨S16777216, .f32⟩ : BufTy).Contents (Elt F) → (⟨S16777216, .f32⟩ : BufTy).Contents (Elt F)),
    TRef.nullary main_call0.cst (constant S_ .f32 0x00000000#32),
    TRef.unary main_call0.cst main_call0.v0 (broadcastInDim S16777216 ![] bcast_S_S16777216 : (⟨S_, .f32⟩ : BufTy).Contents (Elt F) → (⟨S16777216, .f32⟩ : BufTy).Contents (Elt F)),
    TRef.binary (.of main_v8 : TRef sig ⟨S16777216, .f32⟩) main_call0.v0 main_call0.v1 (cmpf .olt),
    TRef.unary (.of main_v8 : TRef sig ⟨S16777216, .f32⟩) main_call0.v2 Host.ceil,
    TRef.unary (.of main_v8 : TRef sig ⟨S16777216, .f32⟩) main_call0.v3 Host.floor,
    TRef.ternary main_call0.v1 main_call0.v2 main_call0.v3 main_call0.call0.v0 select,
    nullary main_cst_2 (constant S_ .f32 0x42026136#32),
    unary main_cst_2 main_v10 (broadcastInDim S16777216 ![] bcast_S_S16777216 : (⟨S_, .f32⟩ : BufTy).Contents (Elt F) → (⟨S16777216, .f32⟩ : BufTy).Contents (Elt F)),
    binary main_v9 main_v10 main_v11 (Host.divf : (⟨S16777216, .f32⟩ : BufTy).Contents (Elt F) → (⟨S16777216, .f32⟩ : BufTy).Contents (Elt F) → (⟨S16777216, .f32⟩ : BufTy).Contents (Elt F)),
    binary main_v8 main_v9 main_v12 (subf : (⟨S16777216, .f32⟩ : BufTy).Contents (Elt F) → (⟨S16777216, .f32⟩ : BufTy).Contents (Elt F) → (⟨S16777216, .f32⟩ : BufTy).Contents (Elt F)),
    nullary main_cst_3 (constant S_ .f32 0x00000000#32),
    TRef.unary (.of main_cst_3 : TRef sig ⟨S_, .f32⟩) main_call1.v0 (broadcastInDim S16777216 ![] bcast_S_S16777216 : (⟨S_, .f32⟩ : BufTy).Contents (Elt F) → (⟨S16777216, .f32⟩ : BufTy).Contents (Elt F)),
    TRef.ternary (.of main_v5 : TRef sig ⟨S16777216, .i1⟩) (.of main_arg2 : TRef sig ⟨S16777216, .f32⟩) main_call1.v0 main_call1.v1 select,
    TRef.ternary (.of main_v1 : TRef sig ⟨S16777216, .i1⟩) (.of main_v11 : TRef sig ⟨S16777216, .f32⟩) (.of main_v13 : TRef sig ⟨S16777216, .f32⟩) main_call2.v0 select,
    nullary main_cst_4 (constant S_ .f32 0x00000000#32),
    TRef.unary (.of main_cst_4 : TRef sig ⟨S_, .f32⟩) main_call3.v0 (broadcastInDim S16777216 ![] bcast_S_S16777216 : (⟨S_, .f32⟩ : BufTy).Contents (Elt F) → (⟨S16777216, .f32⟩ : BufTy).Contents (Elt F)),
    TRef.ternary (.of main_v3 : TRef sig ⟨S16777216, .i1⟩) main_call3.v0 (.of main_arg1 : TRef sig ⟨S16777216, .f32⟩) main_call3.v1 select,
    TRef.ternary (.of main_v1 : TRef sig ⟨S16777216, .i1⟩) (.of main_v12 : TRef sig ⟨S16777216, .f32⟩) (.of main_v15 : TRef sig ⟨S16777216, .f32⟩) main_call4.v0 select ]

set_option maxRecDepth 1024 in
/-- @main is that straight line: the outlined functions unfolded at their calls, the sequencing re-associated. -/
theorem main_eq (c : Dev nD) : main (F := F) c = seq ops := by
  simp only [main, fn_trunc.body, fn_where.body, fn_where_0.body, fn_where_1.body, seq, bind_assoc, pure_bind]

/-- The four arguments read out of a valuation, at their tensor types. -/
abbrev wsOf (V : Valuation τ sig (Elt F)) : S16777216.Idx → F .f32 := V (Proc.devRef .tc main_arg0)
abbrev rcOf (V : Valuation τ sig (Elt F)) : S16777216.Idx → F .f32 := V (Proc.devRef .tc main_arg1)
abbrev convOf (V : Valuation τ sig (Elt F)) : S16777216.Idx → F .f32 := V (Proc.devRef .tc main_arg2)
abbrev stOf (V : Valuation τ sig (Elt F)) : S16777216.Idx → BitVec 32 := V (Proc.devRef .tc main_arg3)

set_option maxRecDepth 8192 in
/-- The first result, index by index, is the reference's new output of the four inputs there. -/
theorem out_eq (V : Valuation τ sig (Elt F)) :
    (after ops V (Proc.devRef .tc main_v14) : S16777216.Idx → F .f32)
      = fun i => Encoder.outH (wsOf V i) (rcOf V i) (convOf V i) (stOf V i) := by
  simp only [after_cons, after_nil]
  rfl

set_option maxRecDepth 8192 in
/-- The second result, index by index, is the reference's new carry. -/
theorem carry_eq (V : Valuation τ sig (Elt F)) :
    (after ops V (Proc.devRef .tc main_v16) : S16777216.Idx → F .f32)
      = fun i => Encoder.carryH (wsOf V i) (rcOf V i) (stOf V i) := by
  simp only [after_cons, after_nil]
  rfl

theorem arg0_eq (V : Valuation τ sig (Elt F)) : after ops V (Proc.devRef .tc main_arg0) = V (Proc.devRef .tc main_arg0) := by
  simp only [after_cons, after_nil]
  rfl
theorem arg1_eq (V : Valuation τ sig (Elt F)) : after ops V (Proc.devRef .tc main_arg1) = V (Proc.devRef .tc main_arg1) := by
  simp only [after_cons, after_nil]
  rfl
theorem arg2_eq (V : Valuation τ sig (Elt F)) : after ops V (Proc.devRef .tc main_arg2) = V (Proc.devRef .tc main_arg2) := by
  simp only [after_cons, after_nil]
  rfl
theorem arg3_eq (V : Valuation τ sig (Elt F)) : after ops V (Proc.devRef .tc main_arg3) = V (Proc.devRef .tc main_arg3) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    ternary_bufs_sub .., nullary_bufs_sub .., unary_bufs_sub .., binary_bufs_sub .., binary_bufs_sub .., nullary_bufs_sub ..,
    unary_bufs_sub .., ternary_bufs_sub .., ternary_bufs_sub .., nullary_bufs_sub .., unary_bufs_sub .., ternary_bufs_sub ..,
    ternary_bufs_sub ..⟩

/-- On every device, for any float values, from any memory with zero counters: every weakly fair execution of the
    reference's @main terminates with its two results at the encoder step of the arguments' launch contents, index
    by index, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = (fun i => Encoder.outH (m ((c.tc : Thread nD τ).loc main_arg0) i) (m ((c.tc : Thread nD τ).loc main_arg1) i)
              (m ((c.tc : Thread nD τ).loc main_arg2) i) (m ((c.tc : Thread nD τ).loc main_arg3) i))
      ∧ r.2.mem ((c.tc : Thread nD τ).loc main_v16)
          = (fun i => Encoder.carryH (m ((c.tc : Thread nD τ).loc main_arg0) i) (m ((c.tc : Thread nD τ).loc main_arg1) i)
              (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (out_eq _), (h c main_v16).trans (carry_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.lean ====
/-
  The wheel-encoder step over 16777216 wheels, a Pallas kernel against its jnp reference, equal over the extended reals.

  For each wheel, from its speed `ws`, carried fractional clicks `rc`, previous output `conv` and signal state `st`:
      temp = ws · s + rc,     clicks = temp rounded toward zero,
      output = clicks / s   if st = 0,   conv if st = 2,   0 otherwise,
      carry  = temp − clicks if st = 0,  0    if st = 1,   rc otherwise,
  with `s` the 32-bit float nearest DT · CPR = 0.1 · 2048 / (2π), the same word in both programs.

  The kernel re-brackets the flat arrays as [16384, 1024], walks them in 32 blocks of 512 rows computing index by
  index, and flattens the two outputs back; the reference computes on the flat arrays. Both therefore apply one
  scalar function at every index, and the two scalar functions differ in one place: the reference divides `clicks` by
  `s`, the kernel multiplies it by a folded constant `r`, the 32-bit float nearest `1/s`. As binary fractions `r` and
  `1/s` differ (`s · r = 1 − 1581290 / 2^47`), so the certificate's table reads `r` as the exact reciprocal of the
  reference's own divisor, `131072 / 4272283 = 1/s`: that is the one entry `preserves` states. Over the extended reals
  dividing by a nonzero real is multiplying by its reciprocal, at the infinities too, so the outputs agree for every
  input; no finiteness of the inputs is used. The carries are the same term on both sides.

  The frames of the two kernel programs are the generated ones; the reference's frame is its run with the results
  dropped.
-/
import proofs.«110232_j80255758893556_2_alg».proof.Defs
import proofs.«110232_j80255758893556_2_alg».proof.Proof.Gen.Kernel
import proofs.«110232_j80255758893556_2_alg».proof.Proof.Gen.Kernel.Frame
import proofs.«110232_j80255758893556_2_alg».proof.Proof.Gen.KernelIdeal
import proofs.«110232_j80255758893556_2_alg».proof.Proof.Gen.KernelIdeal.Frame
import proofs.«110232_j80255758893556_2_alg».proof.Proof.Gen.ReferenceIdeal
import proofs.«110232_j80255758893556_2_alg».proof.Proof.Gen.Pre_finite_inputs
import proofs.«110232_j80255758893556_2_alg».proof.Proof.EncoderSpec
import proofs.«110232_j80255758893556_2_alg».proof.Proof.KernelRun
import proofs.«110232_j80255758893556_2_alg».proof.Proof.ReferenceRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2)
    (Cert.ReferenceIdeal.RefValue.run (F := Ideal) m ρ)

/-- The table gives the kernel's folded constant the value `131072 / 4272283`, the reciprocal of the scale. -/
theorem recip_named : Cert.KernelIdeal.κ "inv_cpr_dt" = some ((131072 / 4272283 : ℝ) : EReal) := rfl

/-- The one rewrite of the idealization: the folded constant, printed under its name, is the table's value. -/
theorem preserves : Cert.preserves_Kernel_KernelIdeal :=
  IdealRules.named_const.statement Cert.KernelIdeal.κ "inv_cpr_dt" .f32 0x3CFB53D1#32
    ((131072 / 4272283 : ℝ) : EReal) recip_named

/-- Both programs end with each result, at every index, at the encoder step of the four arguments there: the kernel's
    with its product by the named reciprocal, the reference's with its quotient by the scale — one function over the
    extended reals. -/
theorem algebraic : Cert.algebraic_KernelIdeal_ReferenceIdeal := by
  intro m ρ m' ρ' _ hagree
  refine ⟨_, _, Cert.KernelIdeal.Whole.run (F := Ideal) m ρ, ?_⟩
  refine (θ_run Cert.ReferenceIdeal.defs _ _).mono (fun _ h c => ?_)
    (Cert.ReferenceIdeal.RefValue.run (F := Ideal) m' ρ')
  obtain ⟨h0, h1, hargs⟩ := h c
  obtain ⟨g0, g1, g2, g3⟩ := hagree c
  refine ⟨h0.trans ?_, h1.trans ?_, hargs⟩
  · rw [g0, g1, g2, g3]
    funext i
    exact (Encoder.outK_eq_outH Cert.KernelIdeal.κ recip_named _ _ _ _).symm
  · rw [g0, g1, g3]
    funext i
    exact (Encoder.carryK_eq_carryH _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
